-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x8x4096 : Shape := ⟨3, ![8, 8, 4096]⟩
abbrev S8x3x512 : Shape := ⟨3, ![8, 3, 512]⟩
abbrev S1x8x512 : Shape := ⟨3, ![1, 8, 512]⟩
abbrev S8x512 : Shape := ⟨2, ![8, 512]⟩
abbrev S8x512x512 : Shape := ⟨3, ![8, 512, 512]⟩
abbrev S8x512x1 : Shape := ⟨3, ![8, 512, 1]⟩
abbrev S8x1x512 : Shape := ⟨3, ![8, 1, 512]⟩
abbrev S_ : Shape := ⟨0, ![]⟩
abbrev S8x4096 : Shape := ⟨2, ![8, 4096]⟩

abbrev nBuf : Space → Nat
  | .hbm => 25
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S8x8x4096, .f32⟩
  | .hbm, ⟨5, _⟩ => ⟨S8x8x4096, .f32⟩
  | .hbm, ⟨6, _⟩ => ⟨S_, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8x3x512, .f32⟩
  | .local _ .vmem, ⟨1, _⟩ => ⟨S8x3x512, .f32⟩
  | .local _ .vmem, ⟨2, _⟩ => ⟨S8x3x512, .f32⟩
  | .local _ .vmem, ⟨3, _⟩ => ⟨S8x3x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_cst_6 : Ref sig .tc := ⟨.hbm, 20, rfl⟩
abbrev main_v10 : Ref sig .tc := ⟨.hbm, 21, rfl⟩
abbrev main_v11 : Ref sig .tc := ⟨.hbm, 22, rfl⟩
abbrev main_cst_7 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8x4096x3_S8x3x4096_0_2_1 : S8x4096x3.Transposes [0, 2, 1] S8x3x4096
  inb_S8x3x512_S8x3x512_0_0_0 : ∀ a, (![0, 0, 0] : Fin 3 → Nat) a + S8x3x512.size a ≤ S8x3x512.size a
  h_S8x3x512 : 0 < S8x3x512.numel
  shapeCasts_S8x3x512_S8x3x512 : S8x3x512.ShapeCasts S8x3x512
  reduces_S8x3x512_S8x512 : S8x3x512.Reduces [1] S8x512
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reduces_S8x512x512_S8x512_2 : S8x512x512.Reduces [1] S8x512
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  reducesTo_S8x8x4096_S8x4096_d0 : S8x8x4096.ReducesTo [0] S8x4096
  h_S_ : 0 < S_.numel
  reducesTo_S8x4096_S_d0_1 : S8x4096.ReducesTo [0, 1] S_
  dot_S8x3x512_S8x3x512_S8x512x512_1_1_2_2_0_0_wf : DotDims.WF S8x3x512 S8x3x512 S8x512x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x512.size a ≤ S8x3x4096.size a
  hwx0_0 : ∀ i : grid0.Coords, EltTy.bits .f32 = 32 ∨ (Rect.block (s := S8x3x4096) S8x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x512.size a ≤ S8x3x4096.size a
  hwx0_1 : ∀ i : grid0.Coords, EltTy.bits .f32 = 32 ∨ (Rect.block (s := S8x3x4096) S8x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S8x8x4096.size a
  hwx0_2 : ∀ i : grid0.Coords, EltTy.bits .f32 = 32 ∨ (Rect.block (s := S8x8x4096) S1x8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x512.size a ≤ S8x8x4096.size a
  hwx0_3 : ∀ i : grid0.Coords, EltTy.bits .f32 = 32 ∨ (Rect.block (s := S8x8x4096) S1x8x512.size (cc0_transform_3 i) (hinb0_3 i)).WholeWords (EltTy.packing .f32)

variable [Facts₀]

def dot_S8x3x512_S8x3x512_S8x512x512_1_1_2_2_0_0 : DotDims S8x3x512 S8x3x512 S8x512x512 where
  lhsContracting := [1]
  rhsContracting := [1]
  lhsNonContracting := [2]
  rhsNonContracting := [2]
  lhsBatch := [0]
  rhsBatch := [0]
  wf := dot_S8x3x512_S8x3x512_S8x512x512_1_1_2_2_0_0_wf

abbrev win0_0 : Pipeline.Window sig grid0 :=
  Pipeline.Window.ofSpec (Memref.whole main_v0) S8x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_cst_9 : Ref sig .tc := ⟨.hbm, 32, rfl⟩
abbrev main_v20 : Ref sig .tc := ⟨.hbm, 33, rfl⟩
abbrev main_v21 : Ref sig .tc := ⟨.hbm, 34, rfl⟩
abbrev main_cst_10 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.LibLeast.lean ====
/-
  The least of finitely many extended reals, and the reductions by `min` that compute it.

  `least f` is the fold of `min` from +∞ over a finite family; a number is below it exactly when it is below every member
  (`le_least`), so two iterated least values over the two coordinates of a block decomposition are the least value over
  the whole range (`least_blocks`). At the ideal instance, where `minimumf` is `min` on the extended reals and the f32
  word 0x7F800000 is +∞, a `vector.multi_reduction <minimumf>` over one axis and the host's `stablehlo.reduce` with a
  `minimum` body over one axis, both started from that word, are `least` over the removed axis's coordinates
  (`multiReduction_minimumf_least`, `hostReduce_minimumf_least`; the source index is `Shape.Reduces.lift`, whose
  coordinates compute at literal axes).
-/
import Idealize.ShloMosaic.PureOps.Ideal
import Idealize.ShloMosaic.PureOps.Ideal.Laws
import Idealize.ShloMosaic.PureOps.Reduce

noncomputable section

namespace Cert.Lib.Least

open Idealize.ShloMosaic

/-- The least value of a finite family of extended reals, starting from +∞ (the empty family's least value). -/
def least {K : Type} [Fintype K] (f : K → EReal) : EReal := (Finset.univ : Finset K).fold min ⊤ f

/-- The universal property: a bound below the least value is a bound below every member. -/
theorem le_least {K : Type} [Fintype K] (f : K → EReal) (c : EReal) : c ≤ least f ↔ ∀ k, c ≤ f k := by
  unfold least
  rw [Finset.le_fold_min]
  exact ⟨fun h k => h.2 k (Finset.mem_univ k), fun h => ⟨le_top, fun k _ => h k⟩⟩

/-- Two families with the same members have the same least value. -/
theorem least_congr {K : Type} [Fintype K] {f g : K → EReal} (h : ∀ k, f k = g k) : least f = least g :=
  congrArg least (funext h)

/-- The f32 word of +∞ is the top of the extended reals. -/
theorem inf_word : Ideal.ofBits .f32 0x7F800000#32 = (⊤ : EReal) := by
  simp [Ideal.ofBits, Ideal.ieee]

/-- Position `r` of block `t` lies in a range of `T` blocks of `R` positions. -/
theorem block_lt {T R : ℕ} (t : Fin T) (r : Fin R) : t.val * R + r.val < T * R :=
  calc t.val * R + r.val < t.val * R + R := Nat.add_lt_add_left r.isLt _
    _ = (t.val + 1) * R := by rw [Nat.add_mul, Nat.one_mul]
    _ ≤ T * R := Nat.mul_le_mul_right R t.isLt

/-- A range of `T` blocks of `R` positions that has a position has blocks that are not empty, -/
theorem pos_of_lt_mul {T R v : ℕ} (h : v < T * R) : 0 < R := by
  rcases Nat.eq_zero_or_pos R with h0 | h0
  · subst h0; exact absurd h (Nat.not_lt_zero _)
  · exact h0

/-- and the block of a position is one of the `T` blocks. -/
theorem div_lt_of_lt_mul {T R v : ℕ} (h : v < T * R) : v / R < T :=
  Nat.div_lt_of_lt_mul (Nat.mul_comm T R ▸ h)

/-- The least value over a range cut into `T` blocks of `R` positions is the least, over the blocks, of each block's
    least value. -/
theorem least_blocks {T R : ℕ} (g : Fin (T * R) → EReal) :
    least (fun t : Fin T => least fun r : Fin R => g ⟨t.val * R + r.val, block_lt t r⟩) = least g := by
  refine eq_of_forall_le_iff fun c => ?_
  simp only [le_least]
  constructor
  · intro h m
    have hR : 0 < R := pos_of_lt_mul m.isLt
    have hq : m.val / R < T := div_lt_of_lt_mul m.isLt
    have e : m = ⟨(⟨m.val / R, hq⟩ : Fin T).val * R + (⟨m.val % R, Nat.mod_lt _ hR⟩ : Fin R).val, block_lt _ _⟩ :=
      Fin.ext (Nat.div_add_mod' m.val R).symm
    rw [e]; exact h _ _
  · intro h t r; exact h _

/-- At the ideal instance an f32 `vector.multi_reduction <minimumf>` over ONE axis from the word of +∞ is, at a reduced
    index, the least of the source over that axis's coordinates. -/
theorem multiReduction_minimumf_least {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction (F := Ideal) .minimumf [a] t src 0x7F800000#32 h hφ hacc j
      = least fun k : Fin (s.size a) => src (h.lift j k) := by
  rw [multiReduction_minimumf_eq_fold]
  refine (h.fold_filter_drop_single _ _ src j).trans ?_
  show (Finset.univ : Finset (Fin (s.size a))).fold min (Ideal.ofBits .f32 0x7F800000#32) (src ∘ h.lift j) = _
  rw [inf_word]
  rfl

/-- At the ideal instance the host's one-operand `stablehlo.reduce` with a `minimum` body over ONE axis, from the f32
    constant +∞, is, at a reduced index, the least of the operand over that axis's coordinates. -/
theorem hostReduce_minimumf_least {s t u : Shape} {a : Fin s.rank} (x : s.Idx → EReal) (h' : s.ReducesTo [a] t)
    (h : s.Reduces [a] t) (hu : 0 < u.numel) (j : t.Idx) :
    Host.reduce (FloatOps.minimumf (F := Ideal) (φ := .f32)) x (constant (F := Ideal) u .f32 0x7F800000#32) h' hu j
      = least fun k : Fin (s.size a) => x (h.lift j k) := by
  rw [Host.reduce_eq_fold_single (FloatOps.minimumf (F := Ideal) (φ := .f32)) x _ h' h hu j]
  show (Finset.univ : Finset (Fin (s.size a))).fold min (Ideal.ofBits .f32 0x7F800000#32) _ = Finset.univ.fold min ⊤ _
  rw [inf_word]
  rfl

end Cert.Lib.Least

end
-- ==== Proof.Spec.lean ====
/-
  The chamfer distance of two clouds of 4096 points in space, eight clouds at a time, as functions on the extended
  reals: the squared norm of a point, the inner product of two points, the squared distance through
  ‖a − b‖² = ‖a‖² + ‖b‖² − 2·a·b, for every point its least distance to the other cloud, and the same least
  distance taken first over tiles of 512 points and then over the eight tiles. No program is mentioned here.
-/
import Idealize.ShloMosaic.PureOps.Ideal
import Idealize.ShloMosaic.PureOps.Ideal.Laws
import Idealize.ShloMosaic.Lib.ValueIdx
import proofs.«170585_j68272800137445_2_alg».proof.Proof.LibLeast

noncomputable section

open scoped BigOperators

namespace Cert.Chamfer

open Idealize.ShloMosaic Idealize.ShloMosaic.ValueIdx

/-! ## The least of finitely many extended reals: `least`, its universal property `le_least`, `least_congr`, and the word of +∞ -/

export Cert.Lib.Least (least le_least least_congr inf_word)

/-- Point `r` of tile `t`, among 4096 points cut into eight tiles of 512. -/
def pt (t : Fin 8) (r : Fin 512) : Fin 4096 := ⟨t.val * 512 + r.val, by have := t.isLt; have := r.isLt; omega⟩

/-- The least value over 4096 points is the least, over the eight tiles, of each tile's least value. -/
theorem least_tiles (g : Fin 4096 → EReal) : least (fun t : Fin 8 => least fun r : Fin 512 => g (pt t r)) = least g := by
  refine eq_of_forall_le_iff fun c => ?_
  simp only [le_least]
  constructor
  · intro h m
    have hm := m.isLt
    have e : m = pt ⟨m.val / 512, by omega⟩ ⟨m.val % 512, by omega⟩ := Fin.ext (by simp only [pt]; omega)
    rw [e]; exact h _ _
  · intro h t r; exact h _

/-! ## Distances -/

/-- Eight clouds of 4096 points with three coordinates each. -/
abbrev Pts : Type := (⟨3, ![8, 4096, 3]⟩ : Shape).Idx → EReal

/-- The squared norm of point `n` of cloud `b`. -/
def sqn (x : Pts) (b : Fin 8) (n : Fin 4096) : EReal := ∑ k : Fin 3, x (ix3 b n k) * x (ix3 b n k)

/-- The inner product of point `n` of `x`'s cloud `b` with point `m` of `y`'s cloud `b`. -/
def dotp (x y : Pts) (b : Fin 8) (n m : Fin 4096) : EReal := ∑ k : Fin 3, x (ix3 b n k) * y (ix3 b m k)

/-- The squared distance between the two points, as ‖a‖² + ‖b‖² − 2·a·b (the word is the float 2). -/
def dist (x y : Pts) (b : Fin 8) (n m : Fin 4096) : EReal :=
  (sqn x b n + sqn y b m) - Ideal.ofBits .f32 0x40000000#32 * dotp x y b n m

/-- For each point of `x`, its least squared distance to the points of `y`'s cloud. -/
def near1 (x y : Pts) : (⟨2, ![8, 4096]⟩ : Shape).Idx → EReal := fun j => least fun m : Fin 4096 => dist x y (j 0) (j 1) m

/-- For each point of `y`, its least squared distance to the points of `x`'s cloud. -/
def near2 (x y : Pts) : (⟨2, ![8, 4096]⟩ : Shape).Idx → EReal := fun j => least fun n : Fin 4096 => dist x y (j 0) n (j 1)

/-- Tile by tile: entry (t, b, n) is the least squared distance from point `n` of `x` to the 512 points of tile `t` of `y`. -/
def part1 (x y : Pts) : (⟨3, ![8, 8, 4096]⟩ : Shape).Idx → EReal :=
  fun i => least fun r : Fin 512 => dist x y (i 1) (i 2) (pt (i 0) r)

/-- Tile by tile: entry (t, b, m) is the least squared distance from point `m` of `y` to the 512 points of tile `t` of `x`. -/
def part2 (x y : Pts) : (⟨3, ![8, 8, 4096]⟩ : Shape).Idx → EReal :=
  fun i => least fun r : Fin 512 => dist x y (i 1) (pt (i 0) r) (i 2)

/-- The least over the tiles of the tile-wise least distances is the least distance. -/
theorem least_part1 (x y : Pts) (b : Fin 8) (n : Fin 4096) :
    least (fun t : Fin 8 => part1 x y (ix3 t b n)) = near1 x y (ix2 b n) :=
  least_tiles fun m => dist x y b n m

theorem least_part2 (x y : Pts) (b : Fin 8) (m : Fin 4096) :
    least (fun t : Fin 8 => part2 x y (ix3 t b m)) = near2 x y (ix2 b m) :=
  least_tiles fun n => dist x y b n m

/-! ## The loss -/

/-- The loss from the two arrays of least distances: each array's mean (its sum, from zero, over the float 32768), each
    mean with the weight one, and the sum of the two over the float eight — on the extended reals, operation by operation. -/
def loss (h : (⟨2, ![8, 4096]⟩ : Shape).ReducesTo [0, 1] ⟨0, ![]⟩) (hS : 0 < (⟨0, ![]⟩ : Shape).numel)
    (a b : FVec Ideal ⟨2, ![8, 4096]⟩ .f32) : FVec Ideal ⟨0, ![]⟩ .f32 :=
  Host.divf
    (addf
      (mulf (constant (F := Ideal) ⟨0, ![]⟩ .f32 0x3F800000#32)
        (Host.divf (Host.reduceAdd a (constant (F := Ideal) ⟨0, ![]⟩ .f32 0x00000000#32) h hS)
          (constant (F := Ideal) ⟨0, ![]⟩ .f32 0x47000000#32)))
      (mulf (constant (F := Ideal) ⟨0, ![]⟩ .f32 0x3F800000#32)
        (Host.divf (Host.reduceAdd b (constant (F := Ideal) ⟨0, ![]⟩ .f32 0x00000000#32) h hS)
          (constant (F := Ideal) ⟨0, ![]⟩ .f32 0x47000000#32))))
    (constant (F := Ideal) ⟨0, ![]⟩ .f32 0x41000000#32)

end Cert.Chamfer

end
-- ==== Proof.Arrays.lean ====
/-
  The arrays the kernel's region works on, read at an index. Each cloud of points reaches the region transposed, the
  three coordinates of a point along the middle axis; grid point t = 8·i + j takes tile i of the first cloud and tile j
  of the second, and writes the two arrays of tile-wise least distances at the blocks (j, ·, i) and (i, ·, j). Here: the
  transposed arrays and their blocks at an index, the blocks' positions over the grid, and that the written blocks cover
  both result arrays.
-/
import proofs.«170585_j68272800137445_2_alg».proof.Proof.Gen.KernelIdeal.Frame
import proofs.«170585_j68272800137445_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Chamfer.Arrays

open Cert.KernelIdeal Cert.KernelIdeal.Gen Cert.Chamfer

variable (m : (ℓ : Loc nD τ sig) → Buf (Elt Ideal) ℓ)

/-- The first cloud as launched. -/
abbrev X (c : Dev nD) : Pts := m ((c : Thread nD τ).loc main_arg0)
/-- The second cloud as launched. -/
abbrev Y (c : Dev nD) : Pts := m ((c : Thread nD τ).loc main_arg1)

/-- The region finds the first cloud transposed: coordinate k of point n of cloud b at (b, k, n). -/
theorem V_v0 (c : Dev nD) :
    (V m c main_v0 : S8x3x4096.Idx → EReal)
      = transpose S8x3x4096 [0, 2, 1] (m ((c : Thread nD τ).loc main_arg0)) Facts₀.transposes_S8x4096x3_S8x3x4096_0_2_1 := by
  show StableHlo.after hostOps0 (fun b => m (c, b)) (Proc.devRef .tc main_v0) = _
  after_results

/-- The same for the second cloud. -/
theorem V_v1 (c : Dev nD) :
    (V m c main_v1 : S8x3x4096.Idx → EReal)
      = transpose S8x3x4096 [0, 2, 1] (m ((c : Thread nD τ).loc main_arg1)) Facts₀.transposes_S8x4096x3_S8x3x4096_0_2_1 := by
  show StableHlo.after hostOps0 (fun b => m (c, b)) (Proc.devRef .tc main_v1) = _
  after_results

/-- A transposed cloud at (b, k, n) is the cloud at (b, n, k). -/
theorem transposed_apply (x : S8x4096x3.Idx → EReal) (b : Fin 8) (k : Fin 3) (n : Fin 4096) :
    transpose S8x3x4096 [0, 2, 1] x Facts₀.transposes_S8x4096x3_S8x3x4096_0_2_1 (ix3 b k n) = x (ix3 b n k) := by
  refine transpose_apply _ x _ (ix3 b k n) (ix3 b n k) fun a => ?_
  match a with
  | ⟨0, _⟩ => rfl
  | ⟨1, _⟩ => rfl
  | ⟨2, _⟩ => rfl

/-! ## The blocks' positions over the grid -/

/-- Where each window's block sits at grid point t: the first cloud's tile is t / 8, the second's t % 8; the first result's
    block is (t % 8, 0, t / 8), the second's (t / 8, 0, t % 8). -/
theorem idx_facts : ∀ t : Fin cfg0.N,
    win0_0.index t (0 : Fin 3) = 0 ∧ win0_0.index t (1 : Fin 3) = 0 ∧ win0_0.index t (2 : Fin 3) = t.val / 8
    ∧ win0_1.index t (0 : Fin 3) = 0 ∧ win0_1.index t (1 : Fin 3) = 0 ∧ win0_1.index t (2 : Fin 3) = t.val % 8
    ∧ win0_2.index t (0 : Fin 3) = t.val % 8 ∧ win0_2.index t (1 : Fin 3) = 0 ∧ win0_2.index t (2 : Fin 3) = t.val / 8
    ∧ win0_3.index t (0 : Fin 3) = t.val / 8 ∧ win0_3.index t (1 : Fin 3) = 0 ∧ win0_3.index t (2 : Fin 3) = t.val % 8 :=
  (by decide +kernel : ∀ t : Fin grid0.N, _)

/-- The tile of the first cloud that grid point t works on, and the tile of the second. -/
def tile1 (t : Fin cfg0.N) : Fin 8 := ⟨t.val / 8, by have h := t.isLt; have hN : cfg0.N = 64 := N_0; omega⟩
def tile2 (t : Fin cfg0.N) : Fin 8 := ⟨t.val % 8, by omega⟩

/-- The first cloud's block at grid point t, at (b, k, p): coordinate k of point p of tile t / 8 of cloud b. -/
theorem iblk0_apply (c : Dev nD) (t : Fin cfg0.N) (b : Fin 8) (k : Fin 3) (p : Fin 512) :
    (iblk m c 0 t : Vec Ideal S8x3x512 .f32) (ix3 b k p) = X m c (ix3 b (pt (tile1 t) p) k) := by
  obtain ⟨e0, e1, e2, -⟩ := idx_facts t
  unfold iblk
  rw [View.read_apply]
  show V m c main_v0 _ = _
  rw [V_v0]
  refine (congrArg _ ?_).trans (transposed_apply _ b k (pt (tile1 t) p))
  funext a
  apply Fin.ext
  match a with
  | ⟨0, _⟩ => show win0_0.index t (0 : Fin 3) * 8 + 1 * b.val = b.val; omega
  | ⟨1, _⟩ => show win0_0.index t (1 : Fin 3) * 3 + 1 * k.val = k.val; omega
  | ⟨2, _⟩ => show win0_0.index t (2 : Fin 3) * 512 + 1 * p.val = t.val / 8 * 512 + p.val; omega

/-- The second cloud's block at grid point t, at (b, k, q): coordinate k of point q of tile t % 8 of cloud b. -/
theorem iblk1_apply (c : Dev nD) (t : Fin cfg0.N) (b : Fin 8) (k : Fin 3) (q : Fin 512) :
    (iblk m c 1 t : Vec Ideal S8x3x512 .f32) (ix3 b k q) = Y m c (ix3 b (pt (tile2 t) q) k) := by
  obtain ⟨-, -, -, e0, e1, e2, -⟩ := idx_facts t
  unfold iblk
  rw [View.read_apply]
  show V m c main_v1 _ = _
  rw [V_v1]
  refine (congrArg _ ?_).trans (transposed_apply _ b k (pt (tile2 t) q))
  funext a
  apply Fin.ext
  match a with
  | ⟨0, _⟩ => show win0_1.index t (0 : Fin 3) * 8 + 1 * b.val = b.val; omega
  | ⟨1, _⟩ => show win0_1.index t (1 : Fin 3) * 3 + 1 * k.val = k.val; omega
  | ⟨2, _⟩ => show win0_1.index t (2 : Fin 3) * 512 + 1 * q.val = t.val % 8 * 512 + q.val; omega

/-! ## The written blocks cover the result arrays -/

/-- An index of the first result array is in grid point t's block iff each coordinate is in the block's range. -/
theorem mem_blk2 (t : Fin cfg0.N) (i : S8x8x4096.Idx) :
    i ∈ ((cfg0.win 2).blk t).view.set ↔ ∀ a : Fin 3, win0_2.index t a * S1x8x512.size a ≤ (i a).val ∧ (i a).val < win0_2.index t a * S1x8x512.size a + S1x8x512.size a := by
  show i ∈ ((View.whole main_v2_0).slice (win0_2.rect t)).set ↔ _
  rw [View.set_slice_whole, Rect.mem_set_unit]
  exact Iff.rfl

/-- The same for the second result array. -/
theorem mem_blk3 (t : Fin cfg0.N) (i : S8x8x4096.Idx) :
    i ∈ ((cfg0.win 3).blk t).view.set ↔ ∀ a : Fin 3, win0_3.index t a * S1x8x512.size a ≤ (i a).val ∧ (i a).val < win0_3.index t a * S1x8x512.size a + S1x8x512.size a := by
  show i ∈ ((View.whole main_v2_1).slice (win0_3.rect t)).set ↔ _
  rw [View.set_slice_whole, Rect.mem_set_unit]
  exact Iff.rfl

/-- Entry (j, b, n) of the first result array is written by grid point 8·(n / 512) + j. -/
theorem cover2 (i : S8x8x4096.Idx) : ∃ t : Fin cfg0.N, (cfg0.win 2).flush t = true ∧ i ∈ ((cfg0.win 2).blk t).view.set := by
  have h0 : (i 0).val < 8 := (i 0).isLt
  have h1 : (i 1).val < 8 := (i 1).isLt
  have h2 : (i 2).val < 4096 := (i 2).isLt
  have hN : cfg0.N = 64 := N_0
  obtain ⟨t, tv⟩ : ∃ t : Fin cfg0.N, t.val = (i 2).val / 512 * 8 + (i 0).val := ⟨⟨(i 2).val / 512 * 8 + (i 0).val, by omega⟩, rfl⟩
  obtain ⟨-, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 512 ≤ (i 2).val ∧ (i 2).val < win0_2.index t (2 : Fin 3) * 512 + 512; omega

/-- Entry (i, b, m) of the second result array is written by grid point 8·i + m / 512. -/
theorem cover3 (i : S8x8x4096.Idx) : ∃ t : Fin cfg0.N, (cfg0.win 3).flush t = true ∧ i ∈ ((cfg0.win 3).blk t).view.set := by
  have h0 : (i 0).val < 8 := (i 0).isLt
  have h1 : (i 1).val < 8 := (i 1).isLt
  have h2 : (i 2).val < 4096 := (i 2).isLt
  have hN : cfg0.N = 64 := N_0
  obtain ⟨t, tv⟩ : ∃ t : Fin cfg0.N, t.val = (i 0).val * 8 + (i 2).val / 512 := ⟨⟨(i 0).val * 8 + (i 2).val / 512, by omega⟩, rfl⟩
  obtain ⟨-, -, -, -, -, -, -, -, -, e0, e1, e2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 512 ≤ (i 2).val ∧ (i 2).val < win0_3.index t (2 : Fin 3) * 512 + 512; omega

end Cert.Chamfer.Arrays

end
-- ==== Proof.LibUnitAxis3.lean ====
/-
  Rank-3 arrays with a unit axis, read at an index given by its coordinates: a rank-2 array `[a, b]` cast to `[a, b, 1]` or to
  `[a, 1, b]` (a keepdims column or row: the row-major position is kept), and an `[a, b, 1]` or `[a, 1, c]` array broadcast
  to `[a, b, c]` (the one entry of a row, or the one row of a slab, repeated). For any element type and any extents.
-/
import Idealize.ShloMosaic.Lib.Pipeline.Value
import Idealize.ShloMosaic.Lib.ValueIdx

noncomputable section

namespace Cert.Lib.UnitAxis3

open Idealize.ShloMosaic Idealize.ShloMosaic.ValueIdx

section Layout
variable {α : Type}

/-- An `[a, b]` array cast to `[a, b, 1]` reads, at `(i, j, u)`, the operand at `(i, j)`: the row-major position is kept. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one entry of row `(i, j)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row of slab `i` at `k`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

end Cert.Lib.UnitAxis3

end
-- ==== Proof.Payload.lean ====
/-
  One tile of the chamfer distance, read entry by entry on the extended reals. From two blocks of 512 points with three
  coordinates each, in eight clouds, the tile of squared distances is ‖a‖² + ‖c‖² − 2·a·c: the two squared norms are sums
  over the three coordinates, laid along the rows and along the columns, and the inner products are one contraction over
  the coordinate axis. Its row minima and its column minima are the least values, from +∞, along one axis.
  The layout steps (a unit axis added in last or middle place, a column or a row repeated) are read at an index by the
  lemmas on rank-3 arrays with a unit axis; here the sums, the least values and the contraction at an index, then the three
  statements.
-/
import proofs.«170585_j68272800137445_2_alg».proof.Proof.Spec
import proofs.«170585_j68272800137445_2_alg».proof.Proof.Gen.KernelIdeal.Skeleton
import proofs.«170585_j68272800137445_2_alg».proof.Proof.LibUnitAxis3
import Idealize.ShloMosaic.Lib.Pipeline.Value
import Idealize.ShloMosaic.Lib.ValueLayout
import Idealize.ShloMosaic.PureOps.Ideal.Laws

noncomputable section
namespace Cert.Chamfer.Body
open Idealize.ShloMosaic Idealize.ShloMosaic.ValueIdx Cert.KernelIdeal Cert.KernelIdeal.Gen Cert.Chamfer Cert.Lib.UnitAxis3
open scoped BigOperators

/-! ## The reductions and the contraction at an index -/

/-- The sum over the three coordinates: a `[8, 3, 512]` array summed along axis 1 is, at `(b, p)`, the sum over `k` of its
    entries `(b, k, p)`. -/
theorem sum_axis1_apply (src : FVec Ideal S8x3x512 .f32) (h : S8x3x512.Reduces [1] S8x512) (hφ : FKind.Formats .f32)
    (hacc : (0x00000000#32 : BitVec 32) = FKind.add.neutral .f32 hφ) (b : Fin 8) (p : Fin 512) :
    multiReduction (F := Ideal) .add [1] S8x512 src 0x00000000#32 h hφ hacc (ix2 b p) = ∑ k : Fin 3, src (ix3 b k p) := by
  refine (Ideal.multiReduction_add_single src _ h hφ hacc (ix2 b p)).trans ?_
  refine Finset.sum_congr rfl fun k _ => congrArg src (funext fun a => Fin.ext ?_)
  match a with
  | ⟨0, _⟩ => rfl
  | ⟨1, _⟩ => rfl
  | ⟨2, _⟩ => rfl

/-- The least value along the last axis: a `[8, 512, 512]` array reduced by `min` from +∞ along axis 2 is, at `(b, p)`,
    the least of its entries `(b, p, q)` over `q`. -/
theorem min_axis2_apply (src : FVec Ideal S8x512x512 .f32) (h : S8x512x512.Reduces [2] S8x512) (hφ : FKind.Formats .f32)
    (hacc : (0x7F800000#32 : BitVec 32) = FKind.minimumf.neutral .f32 hφ) (b : Fin 8) (p : Fin 512) :
    multiReduction (F := Ideal) .minimumf [2] S8x512 src 0x7F800000#32 h hφ hacc (ix2 b p)
      = least fun q : Fin 512 => src (ix3 b p q) := by
  rw [multiReduction_minimumf_eq_fold]
  refine (h.fold_filter_drop_single _ _ src (ix2 b p)).trans ?_
  show (Finset.univ : Finset (Fin 512)).fold min (Ideal.ofBits .f32 0x7F800000#32) (src ∘ h.lift (ix2 b p)) = _
  rw [inf_word]
  refine congrArg (Finset.fold min ⊤ · (Finset.univ : Finset (Fin 512))) (funext fun q => congrArg src (funext fun a => Fin.ext ?_))
  match a with
  | ⟨0, _⟩ => rfl
  | ⟨1, _⟩ => rfl
  | ⟨2, _⟩ => rfl

/-- The least value along the middle axis: the same array reduced along axis 1 is, at `(b, q)`, the least of its entries
    `(b, p, q)` over `p`. -/
theorem min_axis1_apply (src : FVec Ideal S8x512x512 .f32) (h : S8x512x512.Reduces [1] S8x512) (hφ : FKind.Formats .f32)
    (hacc : (0x7F800000#32 : BitVec 32) = FKind.minimumf.neutral .f32 hφ) (b : Fin 8) (q : Fin 512) :
    multiReduction (F := Ideal) .minimumf [1] S8x512 src 0x7F800000#32 h hφ hacc (ix2 b q)
      = least fun p : Fin 512 => src (ix3 b p q) := by
  rw [multiReduction_minimumf_eq_fold]
  refine (h.fold_filter_drop_single _ _ src (ix2 b q)).trans ?_
  show (Finset.univ : Finset (Fin 512)).fold min (Ideal.ofBits .f32 0x7F800000#32) (src ∘ h.lift (ix2 b q)) = _
  rw [inf_word]
  refine congrArg (Finset.fold min ⊤ · (Finset.univ : Finset (Fin 512))) (funext fun p => congrArg src (funext fun a => Fin.ext ?_))
  match a with
  | ⟨0, _⟩ => rfl
  | ⟨1, _⟩ => rfl
  | ⟨2, _⟩ => rfl

/-! The operand indices of the contraction (batch axis 0, contracting axis 1 of each operand, free axes 2 and 2), coordinate by
    coordinate, at an output index `i` and a contraction index `c`. -/

theorem lhs_coord0 (i : S8x512x512.Idx) (c : dot_S8x3x512_S8x3x512_S8x512x512_1_1_2_2_0_0.contr.Idx) :
    (dot_S8x3x512_S8x3x512_S8x512x512_1_1_2_2_0_0.lhsIdx i c 0).val = (i 0).val := by
  unfold DotDims.lhsIdx
  rw [dif_pos (show (0 : Fin S8x3x512.rank) ∈ dot_S8x3x512_S8x3x512_S8x512x512_1_1_2_2_0_0.lhsBatch by decide)]
  rfl
theorem lhs_coord1 (i : S8x512x512.Idx) (c : dot_S8x3x512_S8x3x512_S8x512x512_1_1_2_2_0_0.contr.Idx) :
    (dot_S8x3x512_S8x3x512_S8x512x512_1_1_2_2_0_0.lhsIdx i c 1).val = (c ⟨0, by decide⟩).val :=
  dot_S8x3x512_S8x3x512_S8x512x512_1_1_2_2_0_0.lhsIdx_val_of_single rfl i c
theorem lhs_coord2 (i : S8x512x512.Idx) (c : dot_S8x3x512_S8x3x512_S8x512x512_1_1_2_2_0_0.contr.Idx) :
    (dot_S8x3x512_S8x3x512_S8x512x512_1_1_2_2_0_0.lhsIdx i c 2).val = (i 1).val := by
  unfold DotDims.lhsIdx
  rw [dif_neg (show ¬(2 : Fin S8x3x512.rank) ∈ dot_S8x3x512_S8x3x512_S8x512x512_1_1_2_2_0_0.lhsBatch by decide),
    dif_pos (show (2 : Fin S8x3x512.rank) ∈ dot_S8x3x512_S8x3x512_S8x512x512_1_1_2_2_0_0.lhsNonContracting by decide)]
  rfl
theorem rhs_coord0 (i : S8x512x512.Idx) (c : dot_S8x3x512_S8x3x512_S8x512x512_1_1_2_2_0_0.contr.Idx) :
    (dot_S8x3x512_S8x3x512_S8x512x512_1_1_2_2_0_0.rhsIdx i c 0).val = (i 0).val := by
  unfold DotDims.rhsIdx
  rw [dif_pos (show (0 : Fin S8x3x512.rank) ∈ dot_S8x3x512_S8x3x512_S8x512x512_1_1_2_2_0_0.rhsBatch by decide)]
  rfl
theorem rhs_coord1 (i : S8x512x512.Idx) (c : dot_S8x3x512_S8x3x512_S8x512x512_1_1_2_2_0_0.contr.Idx) :
    (dot_S8x3x512_S8x3x512_S8x512x512_1_1_2_2_0_0.rhsIdx i c 1).val = (c ⟨0, by decide⟩).val :=
  dot_S8x3x512_S8x3x512_S8x512x512_1_1_2_2_0_0.rhsIdx_val_of_single rfl i c
theorem rhs_coord2 (i : S8x512x512.Idx) (c : dot_S8x3x512_S8x3x512_S8x512x512_1_1_2_2_0_0.contr.Idx) :
    (dot_S8x3x512_S8x3x512_S8x512x512_1_1_2_2_0_0.rhsIdx i c 2).val = (i 2).val := by
  unfold DotDims.rhsIdx
  rw [dif_neg (show ¬(2 : Fin S8x3x512.rank) ∈ dot_S8x3x512_S8x3x512_S8x512x512_1_1_2_2_0_0.rhsBatch by decide),
    dif_pos (show (2 : Fin S8x3x512.rank) ∈ dot_S8x3x512_S8x3x512_S8x512x512_1_1_2_2_0_0.rhsNonContracting by decide)]
  rfl

/-- The contraction over the three coordinates: the batched product of two `[8, 3, 512]` arrays contracting axis 1 of each
    (batch axis 0, free axes 2 and 2), into the zero array, is, at `(b, p, q)`, the sum over `k` of
    `x (b, k, p) * y (b, k, q)`. -/
theorem matmul_apply3 (x y : FVec Ideal S8x3x512 .f32) (b : Fin 8) (p q : Fin 512) :
    matmul dot_S8x3x512_S8x3x512_S8x512x512_1_1_2_2_0_0 none x y (constant (F := Ideal) S8x512x512 .f32 0x00000000#32) (ix3 b p q)
      = ∑ k : Fin 3, x (ix3 b k p) * y (ix3 b k q) := by
  simp only [matmul]
  rw [Ideal.matmul_constant_zero_apply,
    ← Equiv.sum_comp (contrEquiv1 dot_S8x3x512_S8x3x512_S8x512x512_1_1_2_2_0_0 3 rfl rfl).symm]
  refine Finset.sum_congr rfl fun k _ => ?_
  have hk := contrEquiv1_symm_val dot_S8x3x512_S8x3x512_S8x512x512_1_1_2_2_0_0 3 rfl rfl k
  have el : dot_S8x3x512_S8x3x512_S8x512x512_1_1_2_2_0_0.lhsIdx (ix3 b p q)
      ((contrEquiv1 dot_S8x3x512_S8x3x512_S8x512x512_1_1_2_2_0_0 3 rfl rfl).symm k) = ix3 b k p :=
    funext fun a => Fin.ext (by
      match a with
      | ⟨0, _⟩ => exact lhs_coord0 _ _
      | ⟨1, _⟩ => exact (lhs_coord1 _ _).trans hk
      | ⟨2, _⟩ => exact lhs_coord2 _ _)
  have er : dot_S8x3x512_S8x3x512_S8x512x512_1_1_2_2_0_0.rhsIdx (ix3 b p q)
      ((contrEquiv1 dot_S8x3x512_S8x3x512_S8x512x512_1_1_2_2_0_0 3 rfl rfl).symm k) = ix3 b k q :=
    funext fun a => Fin.ext (by
      match a with
      | ⟨0, _⟩ => exact rhs_coord0 _ _
      | ⟨1, _⟩ => exact (rhs_coord1 _ _).trans hk
      | ⟨2, _⟩ => exact rhs_coord2 _ _)
  rw [el, er]

/-! ## The three payloads at an index -/

/-- The tile of squared distances: entry `(b, p, q)` is `‖a‖² + ‖c‖² − 2·a·c` for point `p` of the first block and point `q`
    of the second, in cloud `b`. -/
theorem pay1_apply (v0 v2 : Vec Ideal S8x3x512 .f32) (b : Fin 8) (p q : Fin 512) :
    k0_pay1 (F := Ideal) v0 v2 (ix3 b p q)
      = ((∑ k : Fin 3, v0 (ix3 b k p) * v0 (ix3 b k p)) + ∑ k : Fin 3, v2 (ix3 b k q) * v2 (ix3 b k q))
        - Ideal.ofBits .f32 0x40000000#32 * ∑ k : Fin 3, v0 (ix3 b k p) * v2 (ix3 b k q) := by
  unfold k0_pay1
  simp only [shapeCast_self]
  simp only [subf_apply, addf_apply, mulf_apply, broadcast_apply]
  rw [broadcastTo_ab1_abc_apply, broadcastTo_a1c_abc_apply, shapeCast_ab_ab1_apply, shapeCast_ab_a1b_apply]
  exact congrArg₂ (· - ·)
    (congrArg₂ (· + ·) (sum_axis1_apply (mulf v0 v0) _ _ _ b p) (sum_axis1_apply (mulf v2 v2) _ _ _ b q))
    (congrArg (Ideal.ofBits .f32 0x40000000#32 * ·) (matmul_apply3 v0 v2 b p q))

/-- The row minima: entry `(0, b, p)` is the least, over the points `q` of the second block, of the squared distances from
    point `p` of the first. -/
theorem pay2_apply (v0 v2 : Vec Ideal S8x3x512 .f32) (b : Fin 8) (p : Fin 512) :
    k0_pay2 (F := Ideal) v0 v2 (ix3 (0 : Fin 1) b p) = least fun q : Fin 512 => k0_pay1 (F := Ideal) v0 v2 (ix3 b p q) := by
  unfold k0_pay2
  refine (shapeCast_ab_1ab_apply _ _ (0 : Fin 1) b p).trans ?_
  exact min_axis2_apply (k0_pay1 (F := Ideal) v0 v2) _ _ _ b p

/-- The column minima: entry `(0, b, q)` is the least, over the points `p` of the first block, of the squared distances to
    point `q` of the second. -/
theorem pay3_apply (v0 v2 : Vec Ideal S8x3x512 .f32) (b : Fin 8) (q : Fin 512) :
    k0_pay3 (F := Ideal) v0 v2 (ix3 (0 : Fin 1) b q) = least fun p : Fin 512 => k0_pay1 (F := Ideal) v0 v2 (ix3 b p q) := by
  unfold k0_pay3
  refine (shapeCast_ab_1ab_apply _ _ (0 : Fin 1) b q).trans ?_
  exact min_axis1_apply (k0_pay1 (F := Ideal) v0 v2) _ _ _ b q

end Cert.Chamfer.Body
end
-- ==== Proof.Flushed.lean ====
/-
  What the region leaves. At grid point t = 8·i + j the body's tile of squared distances is, at (b, p, q), the squared
  distance between point p of tile i of the first cloud and point q of tile j of the second; its row minima are block
  (j, ·, i) of the array of tile-wise least distances from the first cloud, its column minima block (i, ·, j) of the array
  from the second. The blocks cover both arrays, so after the region the arrays are those two functions of the clouds.
-/
import proofs.«170585_j68272800137445_2_alg».proof.Proof.Arrays
import proofs.«170585_j68272800137445_2_alg».proof.Proof.Payload

set_option maxRecDepth 16384

noncomputable section

open Idealize.ShloMosaic Idealize.ShloMosaic.TcCoe Idealize.SL.Sem Idealize.ShloMosaic.ValueIdx
open Idealize.ShloMosaic.Pipeline (Dat)

namespace Cert.Chamfer.Flushed

open Cert.KernelIdeal Cert.KernelIdeal.Gen Cert.Chamfer Cert.Chamfer.Arrays Cert.Chamfer.Body

variable (m : (ℓ : Loc nD τ sig) → Buf (Elt Ideal) ℓ)

theorem hz : (![0, 0, 0] : Fin 3 → Nat) = fun _ => 0 := funext fun a => by fin_cases a <;> rfl

/-- The body's tile of squared distances, over blocks that hold tile i of x and tile j of y (transposed): at (b, p, q) the
    squared distance between point p of tile i and point q of tile j. -/
theorem tile_dist (x0 x1 : Vec Ideal S8x3x512 .f32) (x y : Pts) (i j : Fin 8)
    (h0 : ∀ b k p, x0 (ix3 b k p) = x (ix3 b (pt i p) k)) (h1 : ∀ b k q, x1 (ix3 b k q) = y (ix3 b (pt j q) k))
    (b : Fin 8) (p q : Fin 512) : k0_pay1 (F := Ideal) x0 x1 (ix3 b p q) = dist x y b (pt i p) (pt j q) := by
  rw [pay1_apply]
  unfold dist sqn dotp
  simp only [h0, h1]

/-- The row minima of that tile, at an entry u of the [1, 8, 512] block, are the tile-wise least distances from the first
    cloud at the entry v = (j, u₁, 512·i + u₂). -/
theorem block1 (x0 x1 : Vec Ideal S8x3x512 .f32) (x y : Pts) (i j : Fin 8)
    (h0 : ∀ b k p, x0 (ix3 b k p) = x (ix3 b (pt i p) k)) (h1 : ∀ b k q, x1 (ix3 b k q) = y (ix3 b (pt j q) k))
    (u : S1x8x512.Idx) (v : S8x8x4096.Idx)
    (hv0 : (v 0).val = j.val) (hv1 : (v 1).val = (u 1).val) (hv2 : (v 2).val = i.val * 512 + (u 2).val) :
    k0_pay2 (F := Ideal) x0 x1 u = part1 x y v := by
  obtain ⟨a, b, p, rfl⟩ : ∃ (a : Fin 1) (b : Fin 8) (p : Fin 512), u = ix3 a b p := ⟨u 0, u 1, u 2, eq_ix3 u⟩
  obtain rfl : a = 0 := Subsingleton.elim _ _
  obtain ⟨vj, vb, vn, rfl⟩ : ∃ (vj : Fin 8) (vb : Fin 8) (vn : Fin 4096), v = ix3 vj vb vn := ⟨v 0, v 1, v 2, eq_ix3 v⟩
  have ej : vj = j := Fin.ext hv0
  have eb : vb = b := Fin.ext hv1
  have en : vn = pt i p := Fin.ext hv2
  rw [ej, eb, en, pay2_apply]
  show least _ = least fun r : Fin 512 => dist x y b (pt i p) (pt j r)
  exact least_congr fun q => tile_dist x0 x1 x y i j h0 h1 b p q

/-- The column minima, at an entry u of the block, are the tile-wise least distances from the second cloud at the entry
    v = (i, u₁, 512·j + u₂). -/
theorem block2 (x0 x1 : Vec Ideal S8x3x512 .f32) (x y : Pts) (i j : Fin 8)
    (h0 : ∀ b k p, x0 (ix3 b k p) = x (ix3 b (pt i p) k)) (h1 : ∀ b k q, x1 (ix3 b k q) = y (ix3 b (pt j q) k))
    (u : S1x8x512.Idx) (v : S8x8x4096.Idx)
    (hv0 : (v 0).val = i.val) (hv1 : (v 1).val = (u 1).val) (hv2 : (v 2).val = j.val * 512 + (u 2).val) :
    k0_pay3 (F := Ideal) x0 x1 u = part2 x y v := by
  obtain ⟨a, b, q, rfl⟩ : ∃ (a : Fin 1) (b : Fin 8) (q : Fin 512), u = ix3 a b q := ⟨u 0, u 1, u 2, eq_ix3 u⟩
  obtain rfl : a = 0 := Subsingleton.elim _ _
  obtain ⟨vi, vb, vn, rfl⟩ : ∃ (vi : Fin 8) (vb : Fin 8) (vn : Fin 4096), v = ix3 vi vb vn := ⟨v 0, v 1, v 2, eq_ix3 v⟩
  have ei : vi = i := Fin.ext hv0
  have eb : vb = b := Fin.ext hv1
  have en : vn = pt j q := Fin.ext hv2
  rw [ei, eb, en, pay3_apply]
  show least _ = least fun r : Fin 512 => dist x y b (pt i r) (pt j q)
  exact least_congr fun p => tile_dist x0 x1 x y i j h0 h1 b p q

/-- What grid point t writes back to the first result array is its block of the tile-wise least distances. -/
theorem flushed2_eq (c : Dev nD) (t : Fin cfg0.N) :
    (dats m 0 c).flushed 2 t = ((cfg0.win 2).blk t).view.read (Elt Ideal) (part1 (X m c) (Y m c)) := by
  show (cfg0.win 2).cut (grid0.coords t) ((dats m 0 c).after 2 t) = _
  rw [after0_2]
  unfold out0_2
  rw [View.canon_unit_zero hz]
  simp only [View.ld_unit_zero (S := S8x3x512) hz]
  obtain ⟨-, -, -, -, -, -, e0, e1, e2, -⟩ := idx_facts t
  funext u
  show k0_pay2 (F := Ideal) (iblk m c 0 t) (iblk m c 1 t) u = part1 (X m c) (Y m c) (((cfg0.win 2).blk t).view.emb u)
  refine block1 (iblk m c 0 t) (iblk m c 1 t) (X m c) (Y m c) (tile1 t) (tile2 t) (iblk0_apply m c t) (iblk1_apply m c t) u
    (((cfg0.win 2).blk t).view.emb u) ?_ ?_ ?_
  · show win0_2.index t (0 : Fin 3) * 1 + 1 * (u 0).val = t.val % 8
    have hu : (u 0).val < 1 := (u 0).isLt
    omega
  · show win0_2.index t (1 : Fin 3) * 8 + 1 * (u 1).val = (u 1).val
    omega
  · show win0_2.index t (2 : Fin 3) * 512 + 1 * (u 2).val = t.val / 8 * 512 + (u 2).val
    omega

/-- And to the second result array. -/
theorem flushed3_eq (c : Dev nD) (t : Fin cfg0.N) :
    (dats m 0 c).flushed 3 t = ((cfg0.win 3).blk t).view.read (Elt Ideal) (part2 (X m c) (Y m c)) := by
  show (cfg0.win 3).cut (grid0.coords t) ((dats m 0 c).after 3 t) = _
  rw [after0_3]
  unfold out0_3
  rw [View.canon_unit_zero hz]
  simp only [View.ld_unit_zero (S := S8x3x512) hz]
  obtain ⟨-, -, -, -, -, -, -, -, -, e0, e1, e2⟩ := idx_facts t
  funext u
  show k0_pay3 (F := Ideal) (iblk m c 0 t) (iblk m c 1 t) u = part2 (X m c) (Y m c) (((cfg0.win 3).blk t).view.emb u)
  refine block2 (iblk m c 0 t) (iblk m c 1 t) (X m c) (Y m c) (tile1 t) (tile2 t) (iblk0_apply m c t) (iblk1_apply m c t) u
    (((cfg0.win 3).blk t).view.emb u) ?_ ?_ ?_
  · show win0_3.index t (0 : Fin 3) * 1 + 1 * (u 0).val = t.val / 8
    have hu : (u 0).val < 1 := (u 0).isLt
    omega
  · show win0_3.index t (1 : Fin 3) * 8 + 1 * (u 1).val = (u 1).val
    omega
  · show win0_3.index t (2 : Fin 3) * 512 + 1 * (u 2).val = t.val % 8 * 512 + (u 2).val
    omega

/-- After the region the first result array holds the tile-wise least distances from the first cloud. -/
theorem final2 (c : Dev nD) : (dats m 0 c).arrAt 2 cfg0.N = part1 (X m c) (Y m c) :=
  (dats m 0 c).arrAt_eq_of_cover 2 (part1 (X m c) (Y m c)) (fun t _ => flushed2_eq m c t) cover2

/-- And the second those from the second cloud. -/
theorem final3 (c : Dev nD) : (dats m 0 c).arrAt 3 cfg0.N = part2 (X m c) (Y m c) :=
  (dats m 0 c).arrAt_eq_of_cover 3 (part2 (X m c) (Y m c)) (fun t _ => flushed3_eq m c t) cover3

end Cert.Chamfer.Flushed

end
-- ==== Proof.Tail.lean ====
/-
  After the region the program takes, entry by entry, the least over the eight tiles of each array of tile-wise least
  distances — which is the least distance itself — and then the loss of the two arrays.
-/
import proofs.«170585_j68272800137445_2_alg».proof.Proof.Arrays

set_option maxRecDepth 16384

noncomputable section

open Idealize.ShloMosaic Idealize.ShloMosaic.TcCoe Idealize.SL.Sem Idealize.ShloMosaic.ValueIdx

namespace Cert.Chamfer.Tail

open Cert.KernelIdeal Cert.KernelIdeal.Gen Cert.Chamfer Cert.Chamfer.Arrays

variable (m : (ℓ : Loc nD τ sig) → Buf (Elt Ideal) ℓ)

/-- The least from +∞ along the tile axis of an [8, 8, 4096] array, at (b, n): the least over t of the entries (t, b, n). -/
theorem hostmin_apply (z : S8x8x4096.Idx → EReal) (b : Fin 8) (n : Fin 4096) :
    Host.reduce (FloatOps.minimumf (F := Ideal) (φ := .f32)) z (constant (F := Ideal) S_ .f32 0x7F800000#32)
        Facts₀.reducesTo_S8x8x4096_S8x4096_d0 Facts₀.h_S_ (ix2 b n)
      = least fun t : Fin 8 => z (ix3 t b n) := by
  rw [Host.reduce_eq_fold_single (FloatOps.minimumf (F := Ideal) (φ := .f32)) z _ Facts₀.reducesTo_S8x8x4096_S8x4096_d0 (by decide)
    Facts₀.h_S_ (ix2 b n)]
  show Finset.univ.fold min (Ideal.ofBits .f32 0x7F800000#32) _ = Finset.univ.fold min ⊤ _
  rw [inf_word]
  refine congrArg (Finset.univ.fold min ⊤) (funext fun t => congrArg z (funext fun a => Fin.ext ?_))
  match a with
  | ⟨0, _⟩ => rfl
  | ⟨1, _⟩ => rfl
  | ⟨2, _⟩ => rfl

/-- Over the tile-wise least distances from the first cloud this is the least distance to the second cloud. -/
theorem hostmin_part1 (x y : Pts) :
    Host.reduce (FloatOps.minimumf (F := Ideal) (φ := .f32)) (part1 x y) (constant (F := Ideal) S_ .f32 0x7F800000#32)
        Facts₀.reducesTo_S8x8x4096_S8x4096_d0 Facts₀.h_S_ = near1 x y := by
  funext j
  obtain ⟨b, n, rfl⟩ : ∃ (b : Fin 8) (n : Fin 4096), j = ix2 b n := ⟨j 0, j 1, eq_ix2 j⟩
  rw [hostmin_apply, least_part1]

/-- And the same from the second cloud. -/
theorem hostmin_part2 (x y : Pts) :
    Host.reduce (FloatOps.minimumf (F := Ideal) (φ := .f32)) (part2 x y) (constant (F := Ideal) S_ .f32 0x7F800000#32)
        Facts₀.reducesTo_S8x8x4096_S8x4096_d0 Facts₀.h_S_ = near2 x y := by
  funext j
  obtain ⟨b, n, rfl⟩ : ∃ (b : Fin 8) (n : Fin 4096), j = ix2 b n := ⟨j 0, j 1, eq_ix2 j⟩
  rw [hostmin_apply, least_part2]

/-- The program's result, once the region has left the two arrays of tile-wise least distances: the loss of the two
    arrays of least distances. -/
theorem result_eq (c : Dev nD)
    (hf2 : (dats m 0 c).arrAt 2 cfg0.N = part1 (X m c) (Y m c))
    (hf3 : (dats m 0 c).arrAt 3 cfg0.N = part2 (X m c) (Y m c)) :
    Pipeline.afterTail₀ cfgs (dats m) 0 (V0 m) [hostOps1] c main_v12
      = loss Facts₀.reducesTo_S8x4096_S_d0_1 Facts₀.h_S_ (near1 (X m c) (Y m c)) (near2 (X m c) (Y m c)) := by
  have a2 : Pipeline.withArrays (cfgs 0).spec c (V0 m c) (fun w => (dats m 0 c).arrAt w (cfgs 0).N) (Proc.devRef .tc main_v2_0)
      = part1 (X m c) (Y m c) :=
    (Pipeline.withArrays_arr spec0 launch0.win.arr_inj c _ _ 2).trans hf2
  have a3 : Pipeline.withArrays (cfgs 0).spec c (V0 m c) (fun w => (dats m 0 c).arrAt w (cfgs 0).N) (Proc.devRef .tc main_v2_1)
      = part2 (X m c) (Y m c) :=
    (Pipeline.withArrays_arr spec0 launch0.win.arr_inj c _ _ 3).trans hf3
  unfold Pipeline.afterTail₀
  show StableHlo.after hostOps1 _ (Proc.devRef .tc main_v12) = _
  after_results
  rw [a2, a3, hostmin_part1, hostmin_part2]
  rfl

end Cert.Chamfer.Tail

end
-- ==== Proof.KernelRun.lean ====
/-
  The kernel program's run, read: every weakly fair execution ends with the result at the loss of the two arrays of least
  distances between the clouds as launched, and the clouds unchanged.
-/
import proofs.«170585_j68272800137445_2_alg».proof.Proof.Flushed
import proofs.«170585_j68272800137445_2_alg».proof.Proof.Tail

set_option maxRecDepth 16384

noncomputable section

open Idealize.ShloMosaic Idealize.ShloMosaic.TcCoe Idealize.SL.Sem Idealize.ShloMosaic.ValueIdx

namespace Cert.Chamfer.KernelRun

open Cert.KernelIdeal Cert.KernelIdeal.Gen Cert.Chamfer Cert.Chamfer.Arrays

variable (m : (ℓ : Loc nD τ sig) → Buf (Elt Ideal) ℓ) (ρ : Dev nD → PrngReg)

/-- The loss of the least distances between two clouds. -/
abbrev chamfer (x y : Pts) : FVec Ideal ⟨0, ![]⟩ .f32 :=
  loss Facts₀.reducesTo_S8x4096_S_d0_1 Facts₀.h_S_ (near1 x y) (near2 x y)

theorem run : θ_run defs (onTc (τ := τ) (main (F := Ideal))) ⟨m, fun _ => 0, ρ⟩ fun r => ∀ c : Dev nD,
      r.2.mem ((c : Thread nD τ).loc main_v12) = chamfer (X m c) (Y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v12 (Pipeline.mem_restRefs_of main_v12 (by decide) (by decide))).trans
          (Tail.result_eq m c (Flushed.final2 m c) (Flushed.final3 m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Chamfer.KernelRun

end
-- ==== Proof.RefSide.lean ====
import proofs.«170585_j68272800137445_2_alg».proof.Proof.Spec
import proofs.«170585_j68272800137445_2_alg».proof.Proof.Gen.ReferenceIdeal.Read

/-
  The reference program's two arrays of least distances are the mathematical ones: entry (b, n, m) of the array of
  squared distances it forms is ‖x_n‖² + ‖y_m‖² − 2·x_n·y_m, and the least value of that array along its last axis
  (resp. its middle axis), starting from +∞, is the least squared distance from a point of one cloud to the other cloud.
-/
noncomputable section
namespace Cert.Chamfer.Ref
open Idealize.ShloMosaic Idealize.ShloMosaic.ValueIdx Cert.ReferenceIdeal Cert.ReferenceIdeal.Read Cert.Chamfer

variable [Cert.ReferenceIdeal.Facts]

/-- Entry (b, n, m) of the array of squared distances the reference forms is the squared distance between point n of
    the first cloud b and point m of the second cloud b. -/
theorem dist_at (x y : (⟨S8x4096x3, .f32⟩ : BufTy).Contents (Elt Ideal)) (b : Fin 8) (n m : Fin 4096) :
    val_main_v12 (F := Ideal) x y (ix3 b n m) = dist x y b n m := by
  rw [val_main_v12_apply, val_main_v9_apply, val_main_v7_apply, val_main_v5_apply, val_main_v1_apply,
    val_main_v8_apply, val_main_v6_apply, val_main_v3_apply, val_main_v11_apply, val_main_v10_apply,
    val_main_cst_1_apply, val_main_v4_apply, val_main_cst_apply, val_main_cst_0_apply]
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  simp only [e1, e2, e3, e4, val_main_v0_apply, val_main_v2_apply, Ideal.ofBits_def, Ideal.addf_def, Ideal.subf_def,
    Ideal.mulf_def, Ideal.ofBits_zero_f32, zero_add]
  rfl

/-- The array of squared distances has its last axis removed by the reduction along it. -/
theorem red2 : S8x4096x4096.Reduces [2] S8x4096 := by decide

/-- … and its middle axis by the reduction along that one. -/
theorem red1 : S8x4096x4096.Reduces [1] S8x4096 := by decide

/-- The reference's least value along the last axis is the least squared distance to the second cloud. -/
theorem ref_near1 (x y : (⟨S8x4096x3, .f32⟩ : BufTy).Contents (Elt Ideal)) :
    val_main_v13 (F := Ideal) x y = near1 x y := by
  funext j
  obtain ⟨b, n, rfl⟩ : ∃ (b : Fin 8) (n : Fin 4096), j = ix2 b n := ⟨j 0, j 1, eq_ix2 j⟩
  unfold val_main_v13
  refine (Host.reduce_eq_fold_single _ (val_main_v12 (F := Ideal) x y) (val_main_cst_2 (F := Ideal))
    Facts₀.reducesTo_S8x4096x4096_S8x4096_d2 red2 Facts₀.h_S_ (ix2 b n)).trans ?_
  have hm : ∀ m : Fin 4096, (val_main_v12 (F := Ideal) x y ∘ red2.lift (ix2 b n)) m = dist x y b n m := fun m => by
    have e : red2.lift (ix2 b n) m = ix3 b n m :=
      funext fun a => Fin.ext (by match a with | ⟨0, _⟩ => rfl | ⟨1, _⟩ => rfl | ⟨2, _⟩ => rfl)
    show val_main_v12 (F := Ideal) x y (red2.lift (ix2 b n) m) = _
    rw [e]
    exact dist_at x y b n m
  refine Eq.trans ?_ (least_congr hm)
  show Finset.fold min (Ideal.ofBits .f32 0x7F800000#32) _ _ = Finset.fold min ⊤ _ _
  rw [inf_word]
  rfl

/-- The reference's least value along the middle axis is the least squared distance to the first cloud. -/
theorem ref_near2 (x y : (⟨S8x4096x3, .f32⟩ : BufTy).Contents (Elt Ideal)) :
    val_main_v14 (F := Ideal) x y = near2 x y := by
  funext j
  obtain ⟨b, m, rfl⟩ : ∃ (b : Fin 8) (m : Fin 4096), j = ix2 b m := ⟨j 0, j 1, eq_ix2 j⟩
  unfold val_main_v14
  refine (Host.reduce_eq_fold_single _ (val_main_v12 (F := Ideal) x y) (val_main_cst_3 (F := Ideal))
    Facts₀.reducesTo_S8x4096x4096_S8x4096_d1 red1 Facts₀.h_S_ (ix2 b m)).trans ?_
  have hn : ∀ n : Fin 4096, (val_main_v12 (F := Ideal) x y ∘ red1.lift (ix2 b m)) n = dist x y b n m := fun n => by
    have e : red1.lift (ix2 b m) n = ix3 b n m :=
      funext fun a => Fin.ext (by match a with | ⟨0, _⟩ => rfl | ⟨1, _⟩ => rfl | ⟨2, _⟩ => rfl)
    show val_main_v12 (F := Ideal) x y (red1.lift (ix2 b m) n) = _
    rw [e]
    exact dist_at x y b n m
  refine Eq.trans ?_ (least_congr hn)
  show Finset.fold min (Ideal.ofBits .f32 0x7F800000#32) _ _ = Finset.fold min ⊤ _ _
  rw [inf_word]
  rfl

/-- The reference's scalar is the loss of the two arrays of least distances. -/
theorem ref_loss (x y : (⟨S8x4096x3, .f32⟩ : BufTy).Contents (Elt Ideal)) :
    val_main_v22 (F := Ideal) x y
      = loss Facts₀.reducesTo_S8x4096_S_d0_1 Facts₀.h_S_ (val_main_v13 (F := Ideal) x y) (val_main_v14 (F := Ideal) x y) := by
  rfl

end Cert.Chamfer.Ref
end
-- ==== Proof.lean ====
/-
  The chamfer loss of two batches of point clouds: for every point of either cloud the least squared distance
  ‖a‖² + ‖b‖² − 2·a·b to the points of the other cloud, the mean of each family of least distances, and the sum of the two
  means over eight. One program takes the least distance over all 4096 points of the other cloud at once; the other takes
  it over tiles of 512 points and then over the eight tiles. On the extended reals the least of the tiles' least values is
  the least value, the sums of three products are the same sums, and every other operation is the same on both sides, so
  the two results are one number. Neither distributivity nor cancellation is used, so the finiteness of the inputs is never
  opened.
-/
import proofs.«170585_j68272800137445_2_alg».proof.Defs
import proofs.«170585_j68272800137445_2_alg».proof.Proof.Gen.Kernel
import proofs.«170585_j68272800137445_2_alg».proof.Proof.Gen.Kernel.Skeleton
import proofs.«170585_j68272800137445_2_alg».proof.Proof.Gen.Kernel.Launch
import proofs.«170585_j68272800137445_2_alg».proof.Proof.Gen.Kernel.Points
import proofs.«170585_j68272800137445_2_alg».proof.Proof.Gen.Kernel.Frame
import proofs.«170585_j68272800137445_2_alg».proof.Proof.Gen.KernelIdeal
import proofs.«170585_j68272800137445_2_alg».proof.Proof.Gen.KernelIdeal.Skeleton
import proofs.«170585_j68272800137445_2_alg».proof.Proof.Gen.KernelIdeal.Launch
import proofs.«170585_j68272800137445_2_alg».proof.Proof.Gen.KernelIdeal.Points
import proofs.«170585_j68272800137445_2_alg».proof.Proof.Gen.KernelIdeal.Frame
import proofs.«170585_j68272800137445_2_alg».proof.Proof.Gen.ReferenceIdeal
import proofs.«170585_j68272800137445_2_alg».proof.Proof.Gen.Pre_finite_inputs
import proofs.«170585_j68272800137445_2_alg».proof.Proof.Gen.ReferenceIdeal.Run
import proofs.«170585_j68272800137445_2_alg».proof.Proof.Gen.ReferenceIdeal.Read
import proofs.«170585_j68272800137445_2_alg».proof.Proof.KernelRun
import proofs.«170585_j68272800137445_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves the clouds as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- And the reference program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- Both programs end at the chamfer loss of the clouds: the kernel program by its run read block by block and tile by
    tile, the reference by its run read operation by operation; on clouds that agree these are one term. -/
theorem algebraic : Cert.algebraic_KernelIdeal_ReferenceIdeal := by
  intro m ρ m' ρ' _ hagree
  refine ⟨fun c => Cert.Chamfer.KernelRun.chamfer (Cert.Chamfer.Arrays.X m c) (Cert.Chamfer.Arrays.Y m c),
    Cert.Chamfer.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Chamfer.Ref.ref_loss, Cert.Chamfer.Ref.ref_near1,
    Cert.Chamfer.Ref.ref_near2, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
